-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x500000 32) (main_arg2 : FVec F S128x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x256 : Shape := ⟨2, ![1, 256]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S2000x256 : Shape := ⟨2, ![2000, 256]⟩
abbrev S2000 : Shape := ⟨1, ![2000]⟩
abbrev S2000x1 : Shape := ⟨2, ![2000, 1]⟩

abbrev nBuf : Space → Nat
  | .hbm => 92
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .f32⟩
  | .hbm, ⟨25, _⟩ => ⟨S50000x128, .f32⟩
  | .hbm, ⟨26, _⟩ => ⟨S500000x1, .i32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S_, .f32⟩
  | .hbm, ⟨39, _⟩ => ⟨S50000x128, .f32⟩
  | .hbm, ⟨40, _⟩ => ⟨S500000x1, .i32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x128, .f32⟩
  | .hbm, ⟨52, _⟩ => ⟨S_, .f32⟩
  | .hbm, ⟨53, _⟩ => ⟨S50000x128, .f32⟩
  | .hbm, ⟨54, _⟩ => ⟨S500000x1, .i32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x128, .f32⟩
  | .hbm, ⟨66, _⟩ => ⟨S_, .f32⟩
  | .hbm, ⟨67, _⟩ => ⟨S50000x128, .f32⟩
  | .hbm, ⟨68, _⟩ => ⟨S500000x1, .i32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x128, .f32⟩
  | .hbm, ⟨80, _⟩ => ⟨S_, .f32⟩
  | .hbm, ⟨81, _⟩ => ⟨S50000x128, .f32⟩
  | .hbm, ⟨82, _⟩ => ⟨S500000x1, .i32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S1x256, .f32⟩
  | .hbm, ⟨89, _⟩ => ⟨S1x256, .f32⟩
  | .hbm, ⟨90, _⟩ => ⟨S1x64, .f32⟩
  | .hbm, ⟨91, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000x128 : S_.BroadcastsInDim S50000x128 (![] : Fin 0 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S256_S1x256 : S256.ShapeCasts S1x256
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .f32 = 32 ∨ (Rect.block (s := S50000x64) S2000x64.size (cc0_transform_7 i) (hinb0_7 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v62) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v63) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v65) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v66) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000x256 : Shape := ⟨2, ![50000, 256]⟩
abbrev S1x256 : Shape := ⟨2, ![1, 256]⟩
abbrev S50000x64 : Shape := ⟨2, ![50000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .f32⟩
  | .hbm, ⟨25, _⟩ => ⟨S50000x128, .f32⟩
  | .hbm, ⟨26, _⟩ => ⟨S500000x1, .i32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S_, .f32⟩
  | .hbm, ⟨39, _⟩ => ⟨S50000x128, .f32⟩
  | .hbm, ⟨40, _⟩ => ⟨S500000x1, .i32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x128, .f32⟩
  | .hbm, ⟨52, _⟩ => ⟨S_, .f32⟩
  | .hbm, ⟨53, _⟩ => ⟨S50000x128, .f32⟩
  | .hbm, ⟨54, _⟩ => ⟨S500000x1, .i32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x128, .f32⟩
  | .hbm, ⟨66, _⟩ => ⟨S_, .f32⟩
  | .hbm, ⟨67, _⟩ => ⟨S50000x128, .f32⟩
  | .hbm, ⟨68, _⟩ => ⟨S500000x1, .i32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x128, .f32⟩
  | .hbm, ⟨80, _⟩ => ⟨S_, .f32⟩
  | .hbm, ⟨81, _⟩ => ⟨S50000x128, .f32⟩
  | .hbm, ⟨82, _⟩ => ⟨S500000x1, .i32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x256, .f32⟩
  | .hbm, ⟨89, _⟩ => ⟨S1x256, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S1x256, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S50000x256, .f32⟩
  | .hbm, ⟨101, _⟩ => ⟨S50000x256, .f32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | .hbm, ⟨106, _⟩ => ⟨S_, .f32⟩
  | .hbm, ⟨107, _⟩ => ⟨S50000, .f32⟩
  | .hbm, ⟨108, _⟩ => ⟨S_, .f32⟩
  | .hbm, ⟨109, _⟩ => ⟨S50000, .f32⟩
  | .hbm, ⟨110, _⟩ => ⟨S50000, .f32⟩
  | .hbm, ⟨111, _⟩ => ⟨S50000x1, .f32⟩
  | .hbm, ⟨112, _⟩ => ⟨S50000x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000, .f32⟩
  | .hbm, ⟨117, _⟩ => ⟨S50000x1, .f32⟩
  | .hbm, ⟨118, _⟩ => ⟨S50000x1, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call0_cst : Ref sig .tc := ⟨.hbm, 92, rfl⟩
abbrev main_call0_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_cst : Ref sig .tc := ⟨.hbm, 99, rfl⟩
abbrev main_call1_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call2_cst : Ref sig .tc := ⟨.hbm, 106, rfl⟩
abbrev main_call2_v0 : Ref sig .tc := ⟨.hbm, 107, rfl⟩
abbrev main_call2_cst_0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_cst_1 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_v77 : Ref sig .tc := ⟨.hbm, 120, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000x128 : S_.BroadcastsInDim S50000x128 (![] : Fin 0 → Fin S50000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.RowSpec.lean ====
/-
  The function of one row that both programs compute after the shared graph propagation.

  A row `v` of 128 propagated node features goes through three affine layers, the first two followed by
  the rectifier `x ↦ max x 0`, which gives a row of 64 logits `z`; the result row is the log-softmax of `z`,
  taken the numerically shifted way: with `M = max_q z_q`,
      out_q = (z_q − M) − log (Σ_k exp (z_k − M)).
  Everything is over the extended reals: sums and maxima are finite folds, so their order and grouping
  do not matter, and no cancellation or distributivity is used anywhere. The float literals stay the
  binary words both programs print (zero, and −∞ as the maximum's starting value).

  `wholeArray` is that row function applied to every row of a 50000 × 128 array `y`: entry (r, q) of the
  result depends on row r of `y` only, and on all of the weights and biases.
-/
import Idealize.ShloMosaic.PureOps.Ideal
import Idealize.ShloMosaic.Lib.ValueIdx

noncomputable section

open scoped BigOperators

namespace Cert.RowSpec

open Idealize.ShloMosaic Idealize.ShloMosaic.ValueIdx

/-- One affine layer on a row `v` of length `K`: entry `j` is `Σ_k v_k · W_{k j} + b_j`. -/
def affine {K N : Nat} (v : Fin K → EReal) (W : (⟨2, ![K, N]⟩ : Shape).Idx → EReal) (b : Fin N → EReal)
    (j : Fin N) : EReal :=
  (∑ k : Fin K, v k * W (ix2 k j)) + b j

/-- The rectifier: the larger of `x` and zero (zero as the f32 zero word). -/
def relu (x : EReal) : EReal := max x (Ideal.ofBits .f32 0x00000000#32)

/-- The 64 logits of a row of 128 features: affine, rectifier, affine, rectifier, affine. -/
def logits (v : Fin 128 → EReal)
    (W1 : (⟨2, ![128, 256]⟩ : Shape).Idx → EReal) (b1 : Fin 256 → EReal)
    (W2 : (⟨2, ![256, 256]⟩ : Shape).Idx → EReal) (b2 : Fin 256 → EReal)
    (W3 : (⟨2, ![256, 64]⟩ : Shape).Idx → EReal) (b3 : Fin 64 → EReal) : Fin 64 → EReal :=
  affine (fun k => relu (affine (fun k' => relu (affine v W1 b1 k')) W2 b2 k)) W3 b3

/-- The largest of a row's 64 entries, folded from −∞ (the f32 word of −∞). -/
def rowMax (z : Fin 64 → EReal) : EReal :=
  (Finset.univ : Finset (Fin 64)).fold max (Ideal.ofBits .f32 0xFF800000#32) z

/-- A row's entries with the row's maximum subtracted. -/
def shifted (z : Fin 64 → EReal) (q : Fin 64) : EReal := z q - rowMax z

/-- Log-softmax of a row, through the shifted entries: `(z_q − M) − log Σ_k exp (z_k − M)`. -/
def logSoftmax (z : Fin 64 → EReal) (q : Fin 64) : EReal :=
  shifted z q - Ideal.log (∑ k : Fin 64, Ideal.exp (shifted z k))

/-- The result row of a feature row. -/
def rowOut (v : Fin 128 → EReal)
    (W1 : (⟨2, ![128, 256]⟩ : Shape).Idx → EReal) (b1 : Fin 256 → EReal)
    (W2 : (⟨2, ![256, 256]⟩ : Shape).Idx → EReal) (b2 : Fin 256 → EReal)
    (W3 : (⟨2, ![256, 64]⟩ : Shape).Idx → EReal) (b3 : Fin 64 → EReal) : Fin 64 → EReal :=
  logSoftmax (logits v W1 b1 W2 b2 W3 b3)

/-- The whole result array: row `r` of the result is `rowOut` of row `r` of `y`. The biases come as
    rank-1 arrays. -/
def wholeArray (y : (⟨2, ![50000, 128]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 64]⟩ : Shape).Idx → EReal) (b3 : (⟨1, ![64]⟩ : Shape).Idx → EReal) :
    (⟨2, ![50000, 64]⟩ : Shape).Idx → EReal :=
  fun i => rowOut (fun k => y (ix2 (⟨(i 0).val, idx2_lt0 i⟩ : Fin 50000) k))
    W1 (fun j => b1 (ix1 j)) W2 (fun j => b2 (ix1 j)) W3 (fun j => b3 (ix1 j))
    (⟨(i 1).val, idx2_lt1 i⟩ : Fin 64)

/-- At the index with coordinates (r, q) the whole array is entry `q` of row `r`'s result. -/
theorem wholeArray_ix2 (y : (⟨2, ![50000, 128]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 64]⟩ : Shape).Idx → EReal) (b3 : (⟨1, ![64]⟩ : Shape).Idx → EReal)
    (r : Fin 50000) (q : Fin 64) :
    wholeArray y W1 b1 W2 b2 W3 b3 (ix2 r q)
      = rowOut (fun k => y (ix2 r k)) W1 (fun j => b1 (ix1 j)) W2 (fun j => b2 (ix1 j)) W3 (fun j => b3 (ix1 j)) q :=
  rfl

/-- The result row depends on its arguments only through their values. -/
theorem rowOut_congr {v v' : Fin 128 → EReal}
    {W1 W1' : (⟨2, ![128, 256]⟩ : Shape).Idx → EReal} {b1 b1' : Fin 256 → EReal}
    {W2 W2' : (⟨2, ![256, 256]⟩ : Shape).Idx → EReal} {b2 b2' : Fin 256 → EReal}
    {W3 W3' : (⟨2, ![256, 64]⟩ : Shape).Idx → EReal} {b3 b3' : Fin 64 → EReal} {q q' : Fin 64}
    (hv : v = v') (hW1 : W1 = W1') (hb1 : b1 = b1') (hW2 : W2 = W2') (hb2 : b2 = b2') (hW3 : W3 = W3') (hb3 : b3 = b3')
    (hq : q = q') : rowOut v W1 b1 W2 b2 W3 b3 q = rowOut v' W1' b1' W2' b2' W3' b3' q' := by
  subst hv hW1 hb1 hW2 hb2 hW3 hb3 hq
  rfl

/-- Taking the larger of −∞ and `x` changes nothing. -/
theorem max_negInf_left (x : EReal) : max (Ideal.ofBits .f32 0xFF800000#32) x = x := by
  simp [Ideal.ofBits, Ideal.ieee]

end Cert.RowSpec

end
-- ==== Proof.RefRows.lean ====
/-
  The reference program computes the row function of `RowSpec`, row by row.

  Its stages after the shared graph propagation `y` (the stage `val_main_v62`, carried here as one unopened
  term) are read at an index with coordinates (r, j):
    * each `dot_general` plus broadcast bias is the affine layer of row r: the contraction sum over k of
      y(r,k)·W(k,j), plus b(j) — the bias reaches (r, j) through two broadcasts that only copy it;
    * `relu` is the maximum with the zero word;
    * `log_softmax` takes the row maximum as a fold of `max` from −∞ over the 64 lanes (and then once more the
      maximum with −∞, which changes nothing), subtracts it, sums the exponentials over the lanes starting from the
      zero word (which adds nothing), takes the logarithm and subtracts again.
  So entry (r, q) of the result is `rowOut` of row r of `y`, at q.
-/
import proofs.«119284_j13288628814644_1_alg».proof.Proof.RefRead
import proofs.«119284_j13288628814644_1_alg».proof.Proof.RowSpec

noncomputable section

open scoped BigOperators

namespace Cert.RefRows

open Cert.ReferenceIdeal Cert.ReferenceIdeal.Gen Cert.ReferenceIdeal.Read Idealize.ShloMosaic
open Idealize.ShloMosaic.ValueIdx Cert.RowSpec

variable (x0 : (⟨S50000x128, .f32⟩ : BufTy).Contents (Elt Ideal)) (x1 : (⟨S2x500000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x64, .f32⟩ : BufTy).Contents (Elt Ideal)) (x7 : (⟨S64, .f32⟩ : BufTy).Contents (Elt Ideal))

/-! ## Where each stage reads its operands, in coordinates -/

theorem lhs1 (r : Fin 50000) (j : Fin 256) (k : Fin 128) : lidx_main_v63 (ix2 r j) k = ix2 r k :=
  funext fun a => Fin.ext (by match a with | ⟨0, _⟩ => rfl | ⟨1, _⟩ => rfl)
theorem rhs1 (r : Fin 50000) (j : Fin 256) (k : Fin 128) : ridx_main_v63 (ix2 r j) k = ix2 k j :=
  funext fun a => Fin.ext (by match a with | ⟨0, _⟩ => rfl | ⟨1, _⟩ => rfl)
theorem bias1 (r : Fin 50000) (j : Fin 256) : idx_main_v64 (idx_main_v65 (ix2 r j)) = ix1 j :=
  funext fun a => Fin.ext (by match a with | ⟨0, _⟩ => rfl)

theorem lhs2 (r : Fin 50000) (j : Fin 256) (k : Fin 256) : lidx_main_v68 (ix2 r j) k = ix2 r k :=
  funext fun a => Fin.ext (by match a with | ⟨0, _⟩ => rfl | ⟨1, _⟩ => rfl)
theorem rhs2 (r : Fin 50000) (j : Fin 256) (k : Fin 256) : ridx_main_v68 (ix2 r j) k = ix2 k j :=
  funext fun a => Fin.ext (by match a with | ⟨0, _⟩ => rfl | ⟨1, _⟩ => rfl)
theorem bias2 (r : Fin 50000) (j : Fin 256) : idx_main_v69 (idx_main_v70 (ix2 r j)) = ix1 j :=
  funext fun a => Fin.ext (by match a with | ⟨0, _⟩ => rfl)

theorem lhs3 (r : Fin 50000) (q : Fin 64) (k : Fin 256) : lidx_main_v73 (ix2 r q) k = ix2 r k :=
  funext fun a => Fin.ext (by match a with | ⟨0, _⟩ => rfl | ⟨1, _⟩ => rfl)
theorem rhs3 (r : Fin 50000) (q : Fin 64) (k : Fin 256) : ridx_main_v73 (ix2 r q) k = ix2 k q :=
  funext fun a => Fin.ext (by match a with | ⟨0, _⟩ => rfl | ⟨1, _⟩ => rfl)
theorem bias3 (r : Fin 50000) (q : Fin 64) : idx_main_v74 (idx_main_v75 (ix2 r q)) = ix1 q :=
  funext fun a => Fin.ext (by match a with | ⟨0, _⟩ => rfl)

theorem rowOfMax (r : Fin 50000) (q : Fin 64) : idx_main_call2_v3 (idx_main_call2_v4 (ix2 r q)) = ix1 r :=
  funext fun a => Fin.ext (by match a with | ⟨0, _⟩ => rfl)
theorem rowOfSum (r : Fin 50000) (q : Fin 64) : idx_main_call2_v8 (idx_main_call2_v10 (ix2 r q)) = ix1 r :=
  funext fun a => Fin.ext (by match a with | ⟨0, _⟩ => rfl)
theorem laneOfSum (r : Fin 50000) (k : Fin 64) : idx_main_call2_v7 (ix1 r) k = ix2 r k :=
  funext fun a => Fin.ext (by match a with | ⟨0, _⟩ => rfl | ⟨1, _⟩ => rfl)

/-! ## The three layers -/

/-- First layer before the rectifier: the affine layer of row r of the propagated features. -/
theorem layer1 (r : Fin 50000) (j : Fin 256) :
    val_main_v66 (F := Ideal) x0 x1 x2 x3 (ix2 r j)
      = affine (fun k => val_main_v62 (F := Ideal) x0 x1 (ix2 r k)) x2 (fun j => x3 (ix1 j)) j := by
  rw [val_main_v66_apply, val_main_v63_apply, val_main_v65_apply, val_main_v64_apply]
  simp only [lhs1, rhs1, bias1]
  rfl

theorem act1 (r : Fin 50000) (j : Fin 256) :
    val_main_v67 (F := Ideal) x0 x1 x2 x3 (ix2 r j) = relu (val_main_v66 (F := Ideal) x0 x1 x2 x3 (ix2 r j)) := by
  rw [val_main_v67_apply, val_main_call0_v0_apply, val_main_call0_cst_apply]
  rfl

theorem layer2 (r : Fin 50000) (j : Fin 256) :
    val_main_v71 (F := Ideal) x0 x1 x2 x3 x4 x5 (ix2 r j)
      = affine (fun k => val_main_v67 (F := Ideal) x0 x1 x2 x3 (ix2 r k)) x4 (fun j => x5 (ix1 j)) j := by
  rw [val_main_v71_apply, val_main_v68_apply, val_main_v70_apply, val_main_v69_apply]
  simp only [lhs2, rhs2, bias2]
  rfl

theorem act2 (r : Fin 50000) (j : Fin 256) :
    val_main_v72 (F := Ideal) x0 x1 x2 x3 x4 x5 (ix2 r j) = relu (val_main_v71 (F := Ideal) x0 x1 x2 x3 x4 x5 (ix2 r j)) := by
  rw [val_main_v72_apply, val_main_call1_v0_apply, val_main_call1_cst_apply]
  rfl

theorem layer3 (r : Fin 50000) (q : Fin 64) :
    val_main_v76 (F := Ideal) x0 x1 x2 x3 x4 x5 x6 x7 (ix2 r q)
      = affine (fun k => val_main_v72 (F := Ideal) x0 x1 x2 x3 x4 x5 (ix2 r k)) x6 (fun j => x7 (ix1 j)) q := by
  rw [val_main_v76_apply, val_main_v73_apply, val_main_v75_apply, val_main_v74_apply]
  simp only [lhs3, rhs3, bias3]
  rfl

/-- The reference's logits at (r, q) are the row function's logits of row r of `y`. -/
theorem logits_eq (r : Fin 50000) (q : Fin 64) :
    val_main_v76 (F := Ideal) x0 x1 x2 x3 x4 x5 x6 x7 (ix2 r q)
      = logits (fun k => val_main_v62 (F := Ideal) x0 x1 (ix2 r k)) x2 (fun j => x3 (ix1 j)) x4 (fun j => x5 (ix1 j))
          x6 (fun j => x7 (ix1 j)) q := by
  rw [layer3]
  simp only [act2, layer2, act1, layer1]
  rfl

/-! ## Log-softmax of a row -/

/-- The row maximum the reference subtracts, at row r: the fold of `max` from −∞ over the row's 64 logits. -/
theorem rowMax_eq (r : Fin 50000) :
    val_main_call2_v2 (F := Ideal) x0 x1 x2 x3 x4 x5 x6 x7 (ix1 r)
      = rowMax (fun q => val_main_v76 (F := Ideal) x0 x1 x2 x3 x4 x5 x6 x7 (ix2 r q)) := by
  rw [val_main_call2_v2_apply, val_main_call2_v1_apply, val_main_call2_cst_0_apply]
  unfold val_main_call2_v0
  generalize val_main_v76 (F := Ideal) x0 x1 x2 x3 x4 x5 x6 x7 = z
  have h : S50000x64.Reduces [1] S50000 := by decide
  have hl : (z ∘ h.lift (ix1 r)) = fun q : Fin 64 => z (ix2 r q) :=
    funext fun q => congrArg z (funext fun a => Fin.ext (by match a with | ⟨0, _⟩ => rfl | ⟨1, _⟩ => rfl))
  refine (max_negInf_left _).trans ?_
  refine (Host.reduce_eq_fold_single (FloatOps.maximumf (F := Ideal) (φ := .f32)) (z : FVec Ideal S50000x64 .f32)
    (val_main_call2_cst (F := Ideal)) reducesTo_S50000x64_S50000_d1 h h_S_ (ix1 r)).trans ?_
  unfold rowMax
  exact congrArg (fun f => Finset.fold max (Ideal.ofBits .f32 0xFF800000#32) f (Finset.univ : Finset (Fin 64))) hl

theorem shifted_eq (r : Fin 50000) (q : Fin 64) :
    val_main_call2_v5 (F := Ideal) x0 x1 x2 x3 x4 x5 x6 x7 (ix2 r q)
      = shifted (fun q' => val_main_v76 (F := Ideal) x0 x1 x2 x3 x4 x5 x6 x7 (ix2 r q')) q := by
  rw [val_main_call2_v5_apply, val_main_call2_v4_apply, val_main_call2_v3_apply, rowOfMax, rowMax_eq]
  rfl

/-- The sum the reference takes the logarithm of, at row r: the exponentials of the row's shifted logits. -/
theorem sumExp_eq (r : Fin 50000) :
    val_main_call2_v7 (F := Ideal) x0 x1 x2 x3 x4 x5 x6 x7 (ix1 r)
      = ∑ k : Fin 64, Ideal.exp (shifted (fun q' => val_main_v76 (F := Ideal) x0 x1 x2 x3 x4 x5 x6 x7 (ix2 r q')) k) := by
  rw [val_main_call2_v7_apply]
  simp only [laneOfSum, val_main_call2_v6_apply, shifted_eq]
  show Ideal.ofBits .f32 0x00000000#32 + _ = _
  rw [Ideal.ofBits_zero_f32, zero_add]
  rfl

theorem out_eq (r : Fin 50000) (q : Fin 64) :
    val_main_v77 (F := Ideal) x0 x1 x2 x3 x4 x5 x6 x7 (ix2 r q)
      = logSoftmax (fun q' => val_main_v76 (F := Ideal) x0 x1 x2 x3 x4 x5 x6 x7 (ix2 r q')) q := by
  rw [val_main_v77_apply, val_main_call2_v10_apply, val_main_call2_v9_apply, val_main_call2_v8_apply, rowOfSum,
    sumExp_eq, shifted_eq]
  rfl

/-- THE REFERENCE'S RESULT is the row function applied to every row of the propagated features. -/
theorem result_eq :
    val_main_v77 (F := Ideal) x0 x1 x2 x3 x4 x5 x6 x7
      = wholeArray (val_main_v62 (F := Ideal) x0 x1) x2 x3 x4 x5 x6 x7 := by
  funext i
  obtain ⟨r, q, rfl⟩ : ∃ (r : Fin 50000) (q : Fin 64), i = ix2 r q := ⟨i 0, i 1, eq_ix2 i⟩
  rw [wholeArray_ix2, out_eq]
  unfold rowOut
  exact congrArg (fun z => logSoftmax z q) (funext fun q' => logits_eq x0 x1 x2 x3 x4 x5 x6 x7 r q')

end Cert.RefRows

end
-- ==== Proof.RefResult.lean ====
/-
  The reference's run, read at its result.

  The reference is a straight line of 113 host operations, each writing one buffer that no later operation
  rewrites. So after the line has run, every buffer holds its operation applied to what its operands hold, and
  reading the result buffer back through the line gives the last stage, `val_main_v77`, of the argument buffers'
  launch contents; the argument buffers themselves are written by no operation. Every weakly fair execution
  therefore ends with the result at that stage of the arguments, and the arguments unchanged.

  The reading is done across a cut after the 80th operation, the one that writes the propagated features:
    * through the first 80 operations the features buffer is read back to its stage `val_main_v62`, and the weights
      and biases are untouched;
    * through the last 33 — three affine layers with the rectifier, then log-softmax — the result is read back from
      ANY contents `W` of the buffers as one expression in what `W` holds at the features, weights and biases.
  Across the cut the features are thus a single atom, compared with their stage once.

  Two facts about the last 33 operations. An operation of the outlined `relu` and `log_softmax` acts on buffers
  through the identification of a tensor's type with its buffer's type, which at a literal buffer is the identity:
  the operation's function conjugated by identities is the function. And the row maximum inside log-softmax is the
  fold of `max` over a row's lanes; both sides apply it to the same logits, so nothing about the fold itself is
  needed.
-/
import proofs.«119284_j13288628814644_1_alg».proof.Proof.RefRun
import proofs.«119284_j13288628814644_1_alg».proof.Proof.RefRead

noncomputable section

namespace Cert.RefResult

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

attribute [local irreducible] Host.reduce

/-! ## The perceptron and log-softmax as the reference's operations compose them, of any array of features -/

/-- The logits of an array `y` of features: three `dot_general`s, each plus its bias broadcast over the rows, the
    first two followed by the maximum with zero. -/
def logitsOf (y : (⟨S50000x128, .f32⟩ : BufTy).Contents (Elt F)) (x2 : (⟨S128x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F))
    (x6 : (⟨S256x64, .f32⟩ : BufTy).Contents (Elt F)) (x7 : (⟨S64, .f32⟩ : BufTy).Contents (Elt F)) : (⟨S50000x64, .f32⟩ : BufTy).Contents (Elt F) :=
  addf (Host.dotGeneral dot_S50000x256_S256x64_S50000x64_1_0_0_1_n_n none
      (maximumf (addf (Host.dotGeneral dot_S50000x256_S256x256_S50000x256_1_0_0_1_n_n none
          (maximumf (addf (Host.dotGeneral dot_S50000x128_S128x256_S50000x256_1_0_0_1_n_n none y x2)
              (broadcastInDim S50000x256 ![0, 1] bcast_S1x256_S50000x256_0_1 (broadcastInDim S1x256 ![1] bcast_S256_S1x256_1 x3)))
            (broadcastInDim S50000x256 ![] bcast_S_S50000x256 (constant S_ .f32 0x00000000#32))) x4)
          (broadcastInDim S50000x256 ![0, 1] bcast_S1x256_S50000x256_0_1 (broadcastInDim S1x256 ![1] bcast_S256_S1x256_1 x5)))
        (broadcastInDim S50000x256 ![] bcast_S_S50000x256 (constant S_ .f32 0x00000000#32))) x6)
    (broadcastInDim S50000x64 ![0, 1] bcast_S1x64_S50000x64_0_1 (broadcastInDim S1x64 ![1] bcast_S64_S1x64_1 x7))

/-- The logits minus their row maxima: the maximum over the lanes from −∞ (then once more the maximum with −∞),
    broadcast back to a column and along the lanes, subtracted. -/
def shiftedOf (z : (⟨S50000x64, .f32⟩ : BufTy).Contents (Elt F)) : (⟨S50000x64, .f32⟩ : BufTy).Contents (Elt F) :=
  subf z (broadcastInDim S50000x64 ![0, 1] bcast_S50000x1_S50000x64_0_1
    (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x64_S50000_d1 h_S_))))

/-- The shifted logits `s` minus the logarithm of the lane sums of their exponentials. -/
def minusLogSumExp (s : (⟨S50000x64, .f32⟩ : BufTy).Contents (Elt F)) : (⟨S50000x64, .f32⟩ : BufTy).Contents (Elt F) :=
  subf s (broadcastInDim S50000x64 ![0, 1] bcast_S50000x1_S50000x64_0_1
    (Host.log (broadcastInDim S50000x1 ![0] bcast_S50000_S50000x1_0
      (Host.reduceAdd (Host.exp s) (constant S_ .f32 0x00000000#32) reducesTo_S50000x64_S50000_d1 h_S_))))

/-- The last stage is that composition applied to the propagated features' stage: the stages unfold to it. -/
theorem tail_eq (x0 : (⟨S50000x128, .f32⟩ : BufTy).Contents (Elt F)) (x1 : (⟨S2x500000, .i32⟩ : BufTy).Contents (Elt F))
    (x2 : (⟨S128x256, .f32⟩ : BufTy).Contents (Elt F)) (x3 : (⟨S256, .f32⟩ : BufTy).Contents (Elt F)) (x4 : (⟨S256x256, .f32⟩ : BufTy).Contents (Elt F)) (x5 : (⟨S256, .f32⟩ : BufTy).Contents (Elt F))
    (x6 : (⟨S256x64, .f32⟩ : BufTy).Contents (Elt F)) (x7 : (⟨S64, .f32⟩ : BufTy).Contents (Elt F)) :
    minusLogSumExp (shiftedOf (logitsOf (val_main_v62 (F := F) x0 x1) x2 x3 x4 x5 x6 x7))
      = val_main_v77 (F := F) x0 x1 x2 x3 x4 x5 x6 x7 := rfl

/-! ## The line cut after the propagation -/

/-- Running a line and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## A typed reference to a literal buffer carries contents unchanged

Inside an outlined function (`relu`, `log_softmax`) each operation's function is stated at the tensor types and
moved to the buffers' own types along an equation that, at a literal buffer, is the identity: for every buffer of
the three calls, and any value, the value moved to the buffer's type or back is the value. -/

theorem toBuf_main_v66 (v : (⟨S50000x256, .f32⟩ : BufTy).Contents (Elt F)) :
    (TRef.of (sig := sig) (T := ⟨S50000x256, .f32⟩) main_v66).toBuf (Val := Elt F) v = v := cast_eq _ v
theorem ofBuf_main_v66 (v : (⟨S50000x256, .f32⟩ : BufTy).Contents (Elt F)) :
    (TRef.of (sig := sig) (T := ⟨S50000x256, .f32⟩) main_v66).ofBuf (Val := Elt F) v = v := cast_eq _ v
theorem toBuf_main_call0_cst (v : (⟨S_, .f32⟩ : BufTy).Contents (Elt F)) :
    (TRef.of (sig := sig) (T := ⟨S_, .f32⟩) main_call0_cst).toBuf (Val := Elt F) v = v := cast_eq _ v
theorem ofBuf_main_call0_cst (v : (⟨S_, .f32⟩ : BufTy).Contents (Elt F)) :
    (TRef.of (sig := sig) (T := ⟨S_, .f32⟩) main_call0_cst).ofBuf (Val := Elt F) v = v := cast_eq _ v
theorem toBuf_main_call0_v0 (v : (⟨S50000x256, .f32⟩ : BufTy).Contents (Elt F)) :
    (TRef.of (sig := sig) (T := ⟨S50000x256, .f32⟩) main_call0_v0).toBuf (Val := Elt F) v = v := cast_eq _ v
theorem ofBuf_main_call0_v0 (v : (⟨S50000x256, .f32⟩ : BufTy).Contents (Elt F)) :
    (TRef.of (sig := sig) (T := ⟨S50000x256, .f32⟩) main_call0_v0).ofBuf (Val := Elt F) v = v := cast_eq _ v
theorem toBuf_main_v67 (v : (⟨S50000x256, .f32⟩ : BufTy).Contents (Elt F)) :
    (TRef.of (sig := sig) (T := ⟨S50000x256, .f32⟩) main_v67).toBuf (Val := Elt F) v = v := cast_eq _ v
theorem ofBuf_main_v67 (v : (⟨S50000x256, .f32⟩ : BufTy).Contents (Elt F)) :
    (TRef.of (sig := sig) (T := ⟨S50000x256, .f32⟩) main_v67).ofBuf (Val := Elt F) v = v := cast_eq _ v
theorem toBuf_main_v71 (v : (⟨S50000x256, .f32⟩ : BufTy).Contents (Elt F)) :
    (TRef.of (sig := sig) (T := ⟨S50000x256, .f32⟩) main_v71).toBuf (Val := Elt F) v = v := cast_eq _ v
theorem ofBuf_main_v71 (v : (⟨S50000x256, .f32⟩ : BufTy).Contents (Elt F)) :
    (TRef.of (sig := sig) (T := ⟨S50000x256, .f32⟩) main_v71).ofBuf (Val := Elt F) v = v := cast_eq _ v
theorem toBuf_main_call1_cst (v : (⟨S_, .f32⟩ : BufTy).Contents (Elt F)) :
    (TRef.of (sig := sig) (T := ⟨S_, .f32⟩) main_call1_cst).toBuf (Val := Elt F) v = v := cast_eq _ v
theorem ofBuf_main_call1_cst (v : (⟨S_, .f32⟩ : BufTy).Contents (Elt F)) :
    (TRef.of (sig := sig) (T := ⟨S_, .f32⟩) main_call1_cst).ofBuf (Val := Elt F) v = v := cast_eq _ v
theorem toBuf_main_call1_v0 (v : (⟨S50000x256, .f32⟩ : BufTy).Contents (Elt F)) :
    (TRef.of (sig := sig) (T := ⟨S50000x256, .f32⟩) main_call1_v0).toBuf (Val := Elt F) v = v := cast_eq _ v
theorem ofBuf_main_call1_v0 (v : (⟨S50000x256, .f32⟩ : BufTy).Contents (Elt F)) :
    (TRef.of (sig := sig) (T := ⟨S50000x256, .f32⟩) main_call1_v0).ofBuf (Val := Elt F) v = v := cast_eq _ v
theorem toBuf_main_v72 (v : (⟨S50000x256, .f32⟩ : BufTy).Contents (Elt F)) :
    (TRef.of (sig := sig) (T := ⟨S50000x256, .f32⟩) main_v72).toBuf (Val := Elt F) v = v := cast_eq _ v
theorem ofBuf_main_v72 (v : (⟨S50000x256, .f32⟩ : BufTy).Contents (Elt F)) :
    (TRef.of (sig := sig) (T := ⟨S50000x256, .f32⟩) main_v72).ofBuf (Val := Elt F) v = v := cast_eq _ v
theorem toBuf_main_v76 (v : (⟨S50000x64, .f32⟩ : BufTy).Contents (Elt F)) :
    (TRef.of (sig := sig) (T := ⟨S50000x64, .f32⟩) main_v76).toBuf (Val := Elt F) v = v := cast_eq _ v
theorem ofBuf_main_v76 (v : (⟨S50000x64, .f32⟩ : BufTy).Contents (Elt F)) :
    (TRef.of (sig := sig) (T := ⟨S50000x64, .f32⟩) main_v76).ofBuf (Val := Elt F) v = v := cast_eq _ v
theorem toBuf_main_call2_cst (v : (⟨S_, .f32⟩ : BufTy).Contents (Elt F)) :
    (TRef.of (sig := sig) (T := ⟨S_, .f32⟩) main_call2_cst).toBuf (Val := Elt F) v = v := cast_eq _ v
theorem ofBuf_main_call2_cst (v : (⟨S_, .f32⟩ : BufTy).Contents (Elt F)) :
    (TRef.of (sig := sig) (T := ⟨S_, .f32⟩) main_call2_cst).ofBuf (Val := Elt F) v = v := cast_eq _ v
theorem toBuf_main_call2_v0 (v : (⟨S50000, .f32⟩ : BufTy).Contents (Elt F)) :
    (TRef.of (sig := sig) (T := ⟨S50000, .f32⟩) main_call2_v0).toBuf (Val := Elt F) v = v := cast_eq _ v
theorem ofBuf_main_call2_v0 (v : (⟨S50000, .f32⟩ : BufTy).Contents (Elt F)) :
    (TRef.of (sig := sig) (T := ⟨S50000, .f32⟩) main_call2_v0).ofBuf (Val := Elt F) v = v := cast_eq _ v
theorem toBuf_main_call2_cst_0 (v : (⟨S_, .f32⟩ : BufTy).Contents (Elt F)) :
    (TRef.of (sig := sig) (T := ⟨S_, .f32⟩) main_call2_cst_0).toBuf (Val := Elt F) v = v := cast_eq _ v
theorem ofBuf_main_call2_cst_0 (v : (⟨S_, .f32⟩ : BufTy).Contents (Elt F)) :
    (TRef.of (sig := sig) (T := ⟨S_, .f32⟩) main_call2_cst_0).ofBuf (Val := Elt F) v = v := cast_eq _ v
theorem toBuf_main_call2_v1 (v : (⟨S50000, .f32⟩ : BufTy).Contents (Elt F)) :
    (TRef.of (sig := sig) (T := ⟨S50000, .f32⟩) main_call2_v1).toBuf (Val := Elt F) v = v := cast_eq _ v
theorem ofBuf_main_call2_v1 (v : (⟨S50000, .f32⟩ : BufTy).Contents (Elt F)) :
    (TRef.of (sig := sig) (T := ⟨S50000, .f32⟩) main_call2_v1).ofBuf (Val := Elt F) v = v := cast_eq _ v
theorem toBuf_main_call2_v2 (v : (⟨S50000, .f32⟩ : BufTy).Contents (Elt F)) :
    (TRef.of (sig := sig) (T := ⟨S50000, .f32⟩) main_call2_v2).toBuf (Val := Elt F) v = v := cast_eq _ v
theorem ofBuf_main_call2_v2 (v : (⟨S50000, .f32⟩ : BufTy).Contents (Elt F)) :
    (TRef.of (sig := sig) (T := ⟨S50000, .f32⟩) main_call2_v2).ofBuf (Val := Elt F) v = v := cast_eq _ v
theorem toBuf_main_call2_v3 (v : (⟨S50000x1, .f32⟩ : BufTy).Contents (Elt F)) :
    (TRef.of (sig := sig) (T := ⟨S50000x1, .f32⟩) main_call2_v3).toBuf (Val := Elt F) v = v := cast_eq _ v
theorem ofBuf_main_call2_v3 (v : (⟨S50000x1, .f32⟩ : BufTy).Contents (Elt F)) :
    (TRef.of (sig := sig) (T := ⟨S50000x1, .f32⟩) main_call2_v3).ofBuf (Val := Elt F) v = v := cast_eq _ v
theorem toBuf_main_call2_v4 (v : (⟨S50000x64, .f32⟩ : BufTy).Contents (Elt F)) :
    (TRef.of (sig := sig) (T := ⟨S50000x64, .f32⟩) main_call2_v4).toBuf (Val := Elt F) v = v := cast_eq _ v
theorem ofBuf_main_call2_v4 (v : (⟨S50000x64, .f32⟩ : BufTy).Contents (Elt F)) :
    (TRef.of (sig := sig) (T := ⟨S50000x64, .f32⟩) main_call2_v4).ofBuf (Val := Elt F) v = v := cast_eq _ v
theorem toBuf_main_call2_v5 (v : (⟨S50000x64, .f32⟩ : BufTy).Contents (Elt F)) :
    (TRef.of (sig := sig) (T := ⟨S50000x64, .f32⟩) main_call2_v5).toBuf (Val := Elt F) v = v := cast_eq _ v
theorem ofBuf_main_call2_v5 (v : (⟨S50000x64, .f32⟩ : BufTy).Contents (Elt F)) :
    (TRef.of (sig := sig) (T := ⟨S50000x64, .f32⟩) main_call2_v5).ofBuf (Val := Elt F) v = v := cast_eq _ v
theorem toBuf_main_call2_v6 (v : (⟨S50000x64, .f32⟩ : BufTy).Contents (Elt F)) :
    (TRef.of (sig := sig) (T := ⟨S50000x64, .f32⟩) main_call2_v6).toBuf (Val := Elt F) v = v := cast_eq _ v
theorem ofBuf_main_call2_v6 (v : (⟨S50000x64, .f32⟩ : BufTy).Contents (Elt F)) :
    (TRef.of (sig := sig) (T := ⟨S50000x64, .f32⟩) main_call2_v6).ofBuf (Val := Elt F) v = v := cast_eq _ v
theorem toBuf_main_call2_cst_1 (v : (⟨S_, .f32⟩ : BufTy).Contents (Elt F)) :
    (TRef.of (sig := sig) (T := ⟨S_, .f32⟩) main_call2_cst_1).toBuf (Val := Elt F) v = v := cast_eq _ v
theorem ofBuf_main_call2_cst_1 (v : (⟨S_, .f32⟩ : BufTy).Contents (Elt F)) :
    (TRef.of (sig := sig) (T := ⟨S_, .f32⟩) main_call2_cst_1).ofBuf (Val := Elt F) v = v := cast_eq _ v
theorem toBuf_main_call2_v7 (v : (⟨S50000, .f32⟩ : BufTy).Contents (Elt F)) :
    (TRef.of (sig := sig) (T := ⟨S50000, .f32⟩) main_call2_v7).toBuf (Val := Elt F) v = v := cast_eq _ v
theorem ofBuf_main_call2_v7 (v : (⟨S50000, .f32⟩ : BufTy).Contents (Elt F)) :
    (TRef.of (sig := sig) (T := ⟨S50000, .f32⟩) main_call2_v7).ofBuf (Val := Elt F) v = v := cast_eq _ v
theorem toBuf_main_call2_v8 (v : (⟨S50000x1, .f32⟩ : BufTy).Contents (Elt F)) :
    (TRef.of (sig := sig) (T := ⟨S50000x1, .f32⟩) main_call2_v8).toBuf (Val := Elt F) v = v := cast_eq _ v
theorem ofBuf_main_call2_v8 (v : (⟨S50000x1, .f32⟩ : BufTy).Contents (Elt F)) :
    (TRef.of (sig := sig) (T := ⟨S50000x1, .f32⟩) main_call2_v8).ofBuf (Val := Elt F) v = v := cast_eq _ v
theorem toBuf_main_call2_v9 (v : (⟨S50000x1, .f32⟩ : BufTy).Contents (Elt F)) :
    (TRef.of (sig := sig) (T := ⟨S50000x1, .f32⟩) main_call2_v9).toBuf (Val := Elt F) v = v := cast_eq _ v
theorem ofBuf_main_call2_v9 (v : (⟨S50000x1, .f32⟩ : BufTy).Contents (Elt F)) :
    (TRef.of (sig := sig) (T := ⟨S50000x1, .f32⟩) main_call2_v9).ofBuf (Val := Elt F) v = v := cast_eq _ v
theorem toBuf_main_call2_v10 (v : (⟨S50000x64, .f32⟩ : BufTy).Contents (Elt F)) :
    (TRef.of (sig := sig) (T := ⟨S50000x64, .f32⟩) main_call2_v10).toBuf (Val := Elt F) v = v := cast_eq _ v
theorem ofBuf_main_call2_v10 (v : (⟨S50000x64, .f32⟩ : BufTy).Contents (Elt F)) :
    (TRef.of (sig := sig) (T := ⟨S50000x64, .f32⟩) main_call2_v10).ofBuf (Val := Elt F) v = v := cast_eq _ v
theorem toBuf_main_v77 (v : (⟨S50000x64, .f32⟩ : BufTy).Contents (Elt F)) :
    (TRef.of (sig := sig) (T := ⟨S50000x64, .f32⟩) main_v77).toBuf (Val := Elt F) v = v := cast_eq _ v
theorem ofBuf_main_v77 (v : (⟨S50000x64, .f32⟩ : BufTy).Contents (Elt F)) :
    (TRef.of (sig := sig) (T := ⟨S50000x64, .f32⟩) main_v77).ofBuf (Val := Elt F) v = v := cast_eq _ v

/-! ## Reading the buffers back through the line -/

set_option maxRecDepth 16384

set_option maxHeartbeats 400000 in
/-- The result buffer read through the last 33 operations from any contents `W`. -/
theorem suffix_read (W : Valuation τ sig (Elt F)) :
    after (List.drop 80 (ops (F := F))) W (Proc.devRef .tc main_v77)
      = minusLogSumExp (shiftedOf (logitsOf (W (Proc.devRef .tc main_v62)) (W (Proc.devRef .tc main_arg2)) (W (Proc.devRef .tc main_arg3)) (W (Proc.devRef .tc main_arg4))
          (W (Proc.devRef .tc main_arg5)) (W (Proc.devRef .tc main_arg6)) (W (Proc.devRef .tc main_arg7)))) := by
  simp only [ops, List.drop_succ_cons, List.drop_zero]
  after_results_simp
  simp only [toBuf_main_v66, ofBuf_main_v66,
    toBuf_main_call0_cst, ofBuf_main_call0_cst,
    toBuf_main_call0_v0, ofBuf_main_call0_v0,
    toBuf_main_v67, ofBuf_main_v67,
    toBuf_main_v71, ofBuf_main_v71,
    toBuf_main_call1_cst, ofBuf_main_call1_cst,
    toBuf_main_call1_v0, ofBuf_main_call1_v0,
    toBuf_main_v72, ofBuf_main_v72,
    toBuf_main_v76, ofBuf_main_v76,
    toBuf_main_call2_cst, ofBuf_main_call2_cst,
    toBuf_main_call2_v0, ofBuf_main_call2_v0,
    toBuf_main_call2_cst_0, ofBuf_main_call2_cst_0,
    toBuf_main_call2_v1, ofBuf_main_call2_v1,
    toBuf_main_call2_v2, ofBuf_main_call2_v2,
    toBuf_main_call2_v3, ofBuf_main_call2_v3,
    toBuf_main_call2_v4, ofBuf_main_call2_v4,
    toBuf_main_call2_v5, ofBuf_main_call2_v5,
    toBuf_main_call2_v6, ofBuf_main_call2_v6,
    toBuf_main_call2_cst_1, ofBuf_main_call2_cst_1,
    toBuf_main_call2_v7, ofBuf_main_call2_v7,
    toBuf_main_call2_v8, ofBuf_main_call2_v8,
    toBuf_main_call2_v9, ofBuf_main_call2_v9,
    toBuf_main_call2_v10, ofBuf_main_call2_v10,
    toBuf_main_v77, ofBuf_main_v77]
  unfold minusLogSumExp shiftedOf logitsOf
  rfl

set_option maxHeartbeats 4000000 in
/-- The features buffer read through the first 80 operations: the propagated features' stage of the first two
    argument buffers' contents. -/
theorem prefix_read (V : Valuation τ sig (Elt F)) :
    after (List.take 80 (ops (F := F))) V (Proc.devRef .tc main_v62)
      = val_main_v62 (F := F) (V (Proc.devRef .tc main_arg0)) (V (Proc.devRef .tc main_arg1)) := by
  simp only [ops, List.take_succ_cons, List.take_zero]
  after_results_simp <;> rfl

/-! None of the first 80 operations writes a weight or a bias. -/

set_option maxHeartbeats 1000000

theorem prefix_kept2 (V : Valuation τ sig (Elt F)) :
    after (List.take 80 (ops (F := F))) V (Proc.devRef .tc main_arg2) = V (Proc.devRef .tc main_arg2) := by
  simp only [ops, List.take_succ_cons, List.take_zero]
  after_results_simp <;> rfl

theorem prefix_kept3 (V : Valuation τ sig (Elt F)) :
    after (List.take 80 (ops (F := F))) V (Proc.devRef .tc main_arg3) = V (Proc.devRef .tc main_arg3) := by
  simp only [ops, List.take_succ_cons, List.take_zero]
  after_results_simp <;> rfl

theorem prefix_kept4 (V : Valuation τ sig (Elt F)) :
    after (List.take 80 (ops (F := F))) V (Proc.devRef .tc main_arg4) = V (Proc.devRef .tc main_arg4) := by
  simp only [ops, List.take_succ_cons, List.take_zero]
  after_results_simp <;> rfl

theorem prefix_kept5 (V : Valuation τ sig (Elt F)) :
    after (List.take 80 (ops (F := F))) V (Proc.devRef .tc main_arg5) = V (Proc.devRef .tc main_arg5) := by
  simp only [ops, List.take_succ_cons, List.take_zero]
  after_results_simp <;> rfl

theorem prefix_kept6 (V : Valuation τ sig (Elt F)) :
    after (List.take 80 (ops (F := F))) V (Proc.devRef .tc main_arg6) = V (Proc.devRef .tc main_arg6) := by
  simp only [ops, List.take_succ_cons, List.take_zero]
  after_results_simp <;> rfl

theorem prefix_kept7 (V : Valuation τ sig (Elt F)) :
    after (List.take 80 (ops (F := F))) V (Proc.devRef .tc main_arg7) = V (Proc.devRef .tc main_arg7) := by
  simp only [ops, List.take_succ_cons, List.take_zero]
  after_results_simp <;> rfl

/-- So the result buffer, read back through the whole line from any contents `V`, is the last stage of the argument
    buffers' contents. -/
theorem result_read (V : Valuation τ sig (Elt F)) :
    after (ops (F := F)) V (Proc.devRef .tc main_v77)
      = val_main_v77 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  have h := after_append (List.take 80 (ops (F := F))) (List.drop 80 (ops (F := F))) V
  rw [List.take_append_drop] at h
  rw [h, suffix_read, prefix_read, prefix_kept2, prefix_kept3, prefix_kept4, prefix_kept5, prefix_kept6, prefix_kept7]
  exact tail_eq _ _ _ _ _ _ _ _

/-! No operation of the line writes an argument buffer. -/

theorem kept0 (V : Valuation τ sig (Elt F)) :
    after (ops (F := F)) V (Proc.devRef .tc main_arg0) = V (Proc.devRef .tc main_arg0) := by
  after_results_simp <;> rfl

theorem kept1 (V : Valuation τ sig (Elt F)) :
    after (ops (F := F)) V (Proc.devRef .tc main_arg1) = V (Proc.devRef .tc main_arg1) := by
  after_results_simp <;> rfl

theorem kept2 (V : Valuation τ sig (Elt F)) :
    after (ops (F := F)) V (Proc.devRef .tc main_arg2) = V (Proc.devRef .tc main_arg2) := by
  after_results_simp <;> rfl

theorem kept3 (V : Valuation τ sig (Elt F)) :
    after (ops (F := F)) V (Proc.devRef .tc main_arg3) = V (Proc.devRef .tc main_arg3) := by
  after_results_simp <;> rfl

theorem kept4 (V : Valuation τ sig (Elt F)) :
    after (ops (F := F)) V (Proc.devRef .tc main_arg4) = V (Proc.devRef .tc main_arg4) := by
  after_results_simp <;> rfl

theorem kept5 (V : Valuation τ sig (Elt F)) :
    after (ops (F := F)) V (Proc.devRef .tc main_arg5) = V (Proc.devRef .tc main_arg5) := by
  after_results_simp <;> rfl

theorem kept6 (V : Valuation τ sig (Elt F)) :
    after (ops (F := F)) V (Proc.devRef .tc main_arg6) = V (Proc.devRef .tc main_arg6) := by
  after_results_simp <;> rfl

theorem kept7 (V : Valuation τ sig (Elt F)) :
    after (ops (F := F)) V (Proc.devRef .tc main_arg7) = V (Proc.devRef .tc main_arg7) := by
  after_results_simp <;> rfl

/-- On every device, from any memory with zero counters: every weakly fair execution of the reference terminates
    with the result at the last stage of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
        = val_main_v77 (F := F) (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v77).trans (result_read _),
      (h c main_arg0).trans (kept0 _),
      (h c main_arg1).trans (kept1 _),
      (h c main_arg2).trans (kept2 _),
      (h c main_arg3).trans (kept3 _),
      (h c main_arg4).trans (kept4 _),
      (h c main_arg5).trans (kept5 _),
      (h c main_arg6).trans (kept6 _),
      (h c main_arg7).trans (kept7 _)⟩)
    (run_seq scopedRefs_eq scopedSems_eq defs main (fun _ => ops) main_eq (fun _ => ops_sub) m ρ)

end Cert.RefResult

end
-- ==== Proof.KernelRows.lean ====
/-
  The kernel body computes the row function of `RowSpec` on every row of its block.

  At a grid point the body holds a [2000, 128] block of propagated features, the three weights whole, and the
  three biases as [1, N] rows. Read at the block index (p, q):
    * each `tpu.matmul` into a zero accumulator is the contraction sum over k of a(p,k)·w(k,j), and the bias row
      broadcast down the rows adds b(0,j): the affine layer of row p; the truncations to bf16 are the identity on
      the extended reals;
    * the maximum with the zero splat is the rectifier;
    * the lane maximum from −∞ is the fold of `max` over the 64 lanes of row p, re-laid as a column and broadcast
      back along the lanes, so every lane of row p subtracts row p's maximum;
    * the lane sum of the exponentials is the sum over the 64 lanes of row p, and its logarithm is subtracted.
  So the stored block at (p, q) is `rowOut` of row p of the feature block, at q: it depends on no other row.
-/
import proofs.«119284_j13288628814644_1_alg».proof.Proof.Gen.KernelIdeal.Value
import proofs.«119284_j13288628814644_1_alg».proof.Proof.RowSpec
import Idealize.ShloMosaic.Lib.Pipeline.Value
import Idealize.ShloMosaic.Lib.ValueIdx
import Idealize.ShloMosaic.PureOps.Ideal.Laws

noncomputable section

open scoped BigOperators

namespace Cert.KernelRows

open Cert.KernelIdeal Cert.KernelIdeal.Gen Cert.KernelIdeal.Value Idealize.ShloMosaic
open Idealize.ShloMosaic.ValueIdx Cert.RowSpec

/-! ### Layer 1: a [2000, 128] block times a [128, 256] weight, plus a [1, 256] bias row -/

theorem lhsRow1 (i : S2000x256.Idx) (c : dot_S2000x128_S128x256_S2000x256_1_0_0_1_n_n.contr.Idx) : (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem lhsCol1 (i : S2000x256.Idx) (c : dot_S2000x128_S128x256_S2000x256_1_0_0_1_n_n.contr.Idx) : (dot_S2000x128_S128x256_S2000x256_1_0_0_1_n_n.lhsIdx i c 1).val = (c ⟨0, by decide⟩).val :=
  dot_S2000x128_S128x256_S2000x256_1_0_0_1_n_n.lhsIdx_val_of_single rfl i c
theorem rhsRow1 (i : S2000x256.Idx) (c : dot_S2000x128_S128x256_S2000x256_1_0_0_1_n_n.contr.Idx) : (dot_S2000x128_S128x256_S2000x256_1_0_0_1_n_n.rhsIdx i c 0).val = (c ⟨0, by decide⟩).val :=
  dot_S2000x128_S128x256_S2000x256_1_0_0_1_n_n.rhsIdx_val_of_single rfl i c
theorem rhsCol1 (i : S2000x256.Idx) (c : dot_S2000x128_S128x256_S2000x256_1_0_0_1_n_n.contr.Idx) : (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The product into a zero accumulator, at (p, j): the sum over the contracted axis of a(p,k) · w(k,j). -/
theorem matmul1_apply (a : FVec Ideal S2000x128 .bf16) (w : FVec Ideal S128x256 .bf16) (p : Fin 2000) (j : Fin 256) :
    matmul dot_S2000x128_S128x256_S2000x256_1_0_0_1_n_n none a w (constant S2000x256 .f32 0x00000000#32) (ix2 p j)
      = ∑ k : Fin 128, a (ix2 p k) * w (ix2 k j) := by
  refine (Ideal.matmul_constant_zero_apply dot_S2000x128_S128x256_S2000x256_1_0_0_1_n_n none a w (ix2 p j)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p j) ((contrEquiv1 dot_S2000x128_S128x256_S2000x256_1_0_0_1_n_n 128 rfl rfl).symm k) = ix2 p k :=
    funext fun c => Fin.ext (by
      match c with
      | ⟨0, _⟩ => exact lhsRow1 _ _
      | ⟨1, _⟩ => exact (lhsCol1 _ _).trans hk)
  have er : dot_S2000x128_S128x256_S2000x256_1_0_0_1_n_n.rhsIdx (ix2 p j) ((contrEquiv1 dot_S2000x128_S128x256_S2000x256_1_0_0_1_n_n 128 rfl rfl).symm k) = ix2 k j :=
    funext fun c => Fin.ext (by
      match c with
      | ⟨0, _⟩ => exact (rhsRow1 _ _).trans hk
      | ⟨1, _⟩ => exact rhsCol1 _ _)
  rw [el, er]

/-- The bias row broadcast down the block's rows, at (p, j), is the bias at j. -/
theorem biasRow1 (b : FVec Ideal S1x256 .f32) (p : Fin 2000) (j : Fin 256) :
    broadcastTo S2000x256 (shapeCast S1x256 b shapeCasts_S1x256_S1x256) broadcasts_S1x256_S2000x256 (ix2 p j)
      = b (ix2 (0 : Fin 1) j) := by
  rw [shapeCast_self]
  exact broadcastTo_apply b _ (ix2 p j) (ix2 (0 : Fin 1) j) (fun c => match c with
    | ⟨0, _⟩ => by show 0 = (if (1 : Nat) = 1 then 0 else p.val); rw [if_pos rfl]
    | ⟨1, _⟩ => by show j.val = (if (256 : Nat) = 1 then 0 else j.val); rw [if_neg (by decide)])

/-- The layer before its rectifier, at (p, j): the affine layer of row p of the block (the changes of float
    format are the identity on extended reals). -/
theorem layer1 (a : FVec Ideal S2000x128 .f32) (w : FVec Ideal S128x256 .f32) (b : FVec Ideal S1x256 .f32)
    (p : Fin 2000) (j : Fin 256) :
    (addf (matmul dot_S2000x128_S128x256_S2000x256_1_0_0_1_n_n none (truncf .bf16 a bitsLt_bf16_f32) (truncf .bf16 w bitsLt_bf16_f32)
        (constant S2000x256 .f32 0x00000000#32))
      (broadcastTo S2000x256 (shapeCast S1x256 b shapeCasts_S1x256_S1x256) broadcasts_S1x256_S2000x256)) (ix2 p j)
      = affine (fun k => a (ix2 p k)) w (fun j => b (ix2 (0 : Fin 1) j)) j :=
  congrArg₂ (· + ·) (matmul1_apply (truncf .bf16 a bitsLt_bf16_f32) (truncf .bf16 w bitsLt_bf16_f32) p j)
    (biasRow1 b p j)

/-! ### Layer 2: a [2000, 256] block times a [256, 256] weight, plus a [1, 256] bias row -/

theorem lhsRow2 (i : S2000x256.Idx) (c : dot_S2000x256_S256x256_S2000x256_1_0_0_1_n_n.contr.Idx) : (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem lhsCol2 (i : S2000x256.Idx) (c : dot_S2000x256_S256x256_S2000x256_1_0_0_1_n_n.contr.Idx) : (dot_S2000x256_S256x256_S2000x256_1_0_0_1_n_n.lhsIdx i c 1).val = (c ⟨0, by decide⟩).val :=
  dot_S2000x256_S256x256_S2000x256_1_0_0_1_n_n.lhsIdx_val_of_single rfl i c
theorem rhsRow2 (i : S2000x256.Idx) (c : dot_S2000x256_S256x256_S2000x256_1_0_0_1_n_n.contr.Idx) : (dot_S2000x256_S256x256_S2000x256_1_0_0_1_n_n.rhsIdx i c 0).val = (c ⟨0, by decide⟩).val :=
  dot_S2000x256_S256x256_S2000x256_1_0_0_1_n_n.rhsIdx_val_of_single rfl i c
theorem rhsCol2 (i : S2000x256.Idx) (c : dot_S2000x256_S256x256_S2000x256_1_0_0_1_n_n.contr.Idx) : (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The product into a zero accumulator, at (p, j): the sum over the contracted axis of a(p,k) · w(k,j). -/
theorem matmul2_apply (a : FVec Ideal S2000x256 .bf16) (w : FVec Ideal S256x256 .bf16) (p : Fin 2000) (j : Fin 256) :
    matmul dot_S2000x256_S256x256_S2000x256_1_0_0_1_n_n none a w (constant S2000x256 .f32 0x00000000#32) (ix2 p j)
      = ∑ k : Fin 256, a (ix2 p k) * w (ix2 k j) := by
  refine (Ideal.matmul_constant_zero_apply dot_S2000x256_S256x256_S2000x256_1_0_0_1_n_n none a w (ix2 p j)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p j) ((contrEquiv1 dot_S2000x256_S256x256_S2000x256_1_0_0_1_n_n 256 rfl rfl).symm k) = ix2 p k :=
    funext fun c => Fin.ext (by
      match c with
      | ⟨0, _⟩ => exact lhsRow2 _ _
      | ⟨1, _⟩ => exact (lhsCol2 _ _).trans hk)
  have er : dot_S2000x256_S256x256_S2000x256_1_0_0_1_n_n.rhsIdx (ix2 p j) ((contrEquiv1 dot_S2000x256_S256x256_S2000x256_1_0_0_1_n_n 256 rfl rfl).symm k) = ix2 k j :=
    funext fun c => Fin.ext (by
      match c with
      | ⟨0, _⟩ => exact (rhsRow2 _ _).trans hk
      | ⟨1, _⟩ => exact rhsCol2 _ _)
  rw [el, er]

/-- The bias row broadcast down the block's rows, at (p, j), is the bias at j. -/
theorem biasRow2 (b : FVec Ideal S1x256 .f32) (p : Fin 2000) (j : Fin 256) :
    broadcastTo S2000x256 (shapeCast S1x256 b shapeCasts_S1x256_S1x256) broadcasts_S1x256_S2000x256 (ix2 p j)
      = b (ix2 (0 : Fin 1) j) := by
  rw [shapeCast_self]
  exact broadcastTo_apply b _ (ix2 p j) (ix2 (0 : Fin 1) j) (fun c => match c with
    | ⟨0, _⟩ => by show 0 = (if (1 : Nat) = 1 then 0 else p.val); rw [if_pos rfl]
    | ⟨1, _⟩ => by show j.val = (if (256 : Nat) = 1 then 0 else j.val); rw [if_neg (by decide)])

/-- The layer before its rectifier, at (p, j): the affine layer of row p of the block (the changes of float
    format are the identity on extended reals). -/
theorem layer2 (a : FVec Ideal S2000x256 .f32) (w : FVec Ideal S256x256 .f32) (b : FVec Ideal S1x256 .f32)
    (p : Fin 2000) (j : Fin 256) :
    (addf (matmul dot_S2000x256_S256x256_S2000x256_1_0_0_1_n_n none (truncf .bf16 a bitsLt_bf16_f32) (truncf .bf16 w bitsLt_bf16_f32)
        (constant S2000x256 .f32 0x00000000#32))
      (broadcastTo S2000x256 (shapeCast S1x256 b shapeCasts_S1x256_S1x256) broadcasts_S1x256_S2000x256)) (ix2 p j)
      = affine (fun k => a (ix2 p k)) w (fun j => b (ix2 (0 : Fin 1) j)) j :=
  congrArg₂ (· + ·) (matmul2_apply (truncf .bf16 a bitsLt_bf16_f32) (truncf .bf16 w bitsLt_bf16_f32) p j)
    (biasRow2 b p j)

/-! ### Layer 3: a [2000, 256] block times a [256, 64] weight, plus a [1, 64] bias row -/

theorem lhsRow3 (i : S2000x64.Idx) (c : dot_S2000x256_S256x64_S2000x64_1_0_0_1_n_n.contr.Idx) : (dot_S2000x256_S256x64_S2000x64_1_0_0_1_n_n.lhsIdx i c 0).val = (i 0).val := by
  unfold DotDims.lhsIdx
  rw [dif_neg (show ¬(0 : Fin S2000x256.rank) ∈ dot_S2000x256_S256x64_S2000x64_1_0_0_1_n_n.lhsBatch by decide),
    dif_pos (show (0 : Fin S2000x256.rank) ∈ dot_S2000x256_S256x64_S2000x64_1_0_0_1_n_n.lhsNonContracting by decide)]
  rfl
theorem lhsCol3 (i : S2000x64.Idx) (c : dot_S2000x256_S256x64_S2000x64_1_0_0_1_n_n.contr.Idx) : (dot_S2000x256_S256x64_S2000x64_1_0_0_1_n_n.lhsIdx i c 1).val = (c ⟨0, by decide⟩).val :=
  dot_S2000x256_S256x64_S2000x64_1_0_0_1_n_n.lhsIdx_val_of_single rfl i c
theorem rhsRow3 (i : S2000x64.Idx) (c : dot_S2000x256_S256x64_S2000x64_1_0_0_1_n_n.contr.Idx) : (dot_S2000x256_S256x64_S2000x64_1_0_0_1_n_n.rhsIdx i c 0).val = (c ⟨0, by decide⟩).val :=
  dot_S2000x256_S256x64_S2000x64_1_0_0_1_n_n.rhsIdx_val_of_single rfl i c
theorem rhsCol3 (i : S2000x64.Idx) (c : dot_S2000x256_S256x64_S2000x64_1_0_0_1_n_n.contr.Idx) : (dot_S2000x256_S256x64_S2000x64_1_0_0_1_n_n.rhsIdx i c 1).val = (i 1).val := by
  unfold DotDims.rhsIdx
  rw [dif_neg (show ¬(1 : Fin S256x64.rank) ∈ dot_S2000x256_S256x64_S2000x64_1_0_0_1_n_n.rhsBatch by decide),
    dif_pos (show (1 : Fin S256x64.rank) ∈ dot_S2000x256_S256x64_S2000x64_1_0_0_1_n_n.rhsNonContracting by decide)]
  rfl

/-- The product into a zero accumulator, at (p, j): the sum over the contracted axis of a(p,k) · w(k,j). -/
theorem matmul3_apply (a : FVec Ideal S2000x256 .bf16) (w : FVec Ideal S256x64 .bf16) (p : Fin 2000) (j : Fin 64) :
    matmul dot_S2000x256_S256x64_S2000x64_1_0_0_1_n_n none a w (constant S2000x64 .f32 0x00000000#32) (ix2 p j)
      = ∑ k : Fin 256, a (ix2 p k) * w (ix2 k j) := by
  refine (Ideal.matmul_constant_zero_apply dot_S2000x256_S256x64_S2000x64_1_0_0_1_n_n none a w (ix2 p j)).trans ?_
  rw [← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have el : dot_S2000x256_S256x64_S2000x64_1_0_0_1_n_n.lhsIdx (ix2 p j) ((contrEquiv1 dot_S2000x256_S256x64_S2000x64_1_0_0_1_n_n 256 rfl rfl).symm k) = ix2 p k :=
    funext fun c => Fin.ext (by
      match c with
      | ⟨0, _⟩ => exact lhsRow3 _ _
      | ⟨1, _⟩ => exact (lhsCol3 _ _).trans hk)
  have er : dot_S2000x256_S256x64_S2000x64_1_0_0_1_n_n.rhsIdx (ix2 p j) ((contrEquiv1 dot_S2000x256_S256x64_S2000x64_1_0_0_1_n_n 256 rfl rfl).symm k) = ix2 k j :=
    funext fun c => Fin.ext (by
      match c with
      | ⟨0, _⟩ => exact (rhsRow3 _ _).trans hk
      | ⟨1, _⟩ => exact rhsCol3 _ _)
  rw [el, er]

/-- The bias row broadcast down the block's rows, at (p, j), is the bias at j. -/
theorem biasRow3 (b : FVec Ideal S1x64 .f32) (p : Fin 2000) (j : Fin 64) :
    broadcastTo S2000x64 (shapeCast S1x64 b shapeCasts_S1x64_S1x64) broadcasts_S1x64_S2000x64 (ix2 p j)
      = b (ix2 (0 : Fin 1) j) := by
  rw [shapeCast_self]
  exact broadcastTo_apply b _ (ix2 p j) (ix2 (0 : Fin 1) j) (fun c => match c with
    | ⟨0, _⟩ => by show 0 = (if (1 : Nat) = 1 then 0 else p.val); rw [if_pos rfl]
    | ⟨1, _⟩ => by show j.val = (if (64 : Nat) = 1 then 0 else j.val); rw [if_neg (by decide)])

/-- The layer before its rectifier, at (p, j): the affine layer of row p of the block (the changes of float
    format are the identity on extended reals). -/
theorem layer3 (a : FVec Ideal S2000x256 .f32) (w : FVec Ideal S256x64 .f32) (b : FVec Ideal S1x64 .f32)
    (p : Fin 2000) (j : Fin 64) :
    (addf (matmul dot_S2000x256_S256x64_S2000x64_1_0_0_1_n_n none (truncf .bf16 a bitsLt_bf16_f32) (truncf .bf16 w bitsLt_bf16_f32)
        (constant S2000x64 .f32 0x00000000#32))
      (broadcastTo S2000x64 (shapeCast S1x64 b shapeCasts_S1x64_S1x64) broadcasts_S1x64_S2000x64)) (ix2 p j)
      = affine (fun k => a (ix2 p k)) w (fun j => b (ix2 (0 : Fin 1) j)) j :=
  congrArg₂ (· + ·) (matmul3_apply (truncf .bf16 a bitsLt_bf16_f32) (truncf .bf16 w bitsLt_bf16_f32) p j)
    (biasRow3 b p j)

/-! ### The rectifier, and the two lane reductions of a [2000, 64] block -/

/-- The maximum with the zero splat, at any index, is the rectifier. -/
theorem relu_apply (z : FVec Ideal S2000x256 .f32) (i : S2000x256.Idx) :
    (maximumf z (broadcast S2000x256 (Scalar.ofBits (F := Ideal) .f32 0x00000000#32))) i = relu (z i) := rfl

/-- The lane maximum from −∞, at row p: the fold of `max` over the row's 64 entries. -/
theorem laneMax_apply (z : FVec Ideal S2000x64 .f32) (p : Fin 2000) :
    multiReduction .maximumf [1] S2000 z 0xFF800000#32 reduces_S2000x64_S2000 (.inl rfl) rfl (ix1 p)
      = rowMax (fun q => z (ix2 p q)) := by
  refine (Ideal.multiReduction_maximumf_single z 0xFF800000#32 reduces_S2000x64_S2000 (.inl rfl) rfl (ix1 p)).trans ?_
  unfold rowMax
  exact congrArg (fun f => Finset.fold max (Ideal.ofBits .f32 0xFF800000#32) f (Finset.univ : Finset (Fin 64)))
    (funext fun q => congrArg z (funext fun c => Fin.ext (by match c with | ⟨0, _⟩ => rfl | ⟨1, _⟩ => rfl)))

/-- The lane sum, at row p: the sum of the row's 64 entries. -/
theorem laneSum_apply (z : FVec Ideal S2000x64 .f32) (p : Fin 2000) :
    multiReduction .add [1] S2000 z 0x00000000#32 reduces_S2000x64_S2000 (.inl rfl) rfl (ix1 p)
      = ∑ k : Fin 64, z (ix2 p k) := by
  refine (Ideal.multiReduction_add_single z 0x00000000#32 reduces_S2000x64_S2000 (.inl rfl) rfl (ix1 p)).trans ?_
  exact Finset.sum_congr rfl fun k _ =>
    congrArg z (funext fun c => Fin.ext (by match c with | ⟨0, _⟩ => rfl | ⟨1, _⟩ => rfl))

/-- A per-row value re-laid as a column and broadcast along the lanes, at (p, q), is the value of row p. -/
theorem colBroadcast_apply (v : FVec Ideal S2000 .f32) (p : Fin 2000) (q : Fin 64) :
    broadcastTo S2000x64 (shapeCast S2000x1 v shapeCasts_S2000_S2000x1) broadcasts_S2000x1_S2000x64 (ix2 p q)
      = v (ix1 p) := by
  refine (broadcastTo_apply _ _ (ix2 p q) (ix2 p (0 : Fin 1)) (fun c => match c with
    | ⟨0, _⟩ => by show p.val = (if (2000 : Nat) = 1 then 0 else p.val); rw [if_neg (by decide)]
    | ⟨1, _⟩ => by show 0 = (if (1 : Nat) = 1 then 0 else q.val); rw [if_pos rfl])).trans ?_
  exact shapeCast_apply _ _ (ix2 p (0 : Fin 1)) (ix1 p) (by
    rw [Shape.rowMajor_val_one, Shape.rowMajor_val_two]; show p.val = p.val * 1 + 0; omega)

/-- A block minus its own lane maxima, at (p, q): the shifted entry q of row p. -/
theorem shift_apply (z : FVec Ideal S2000x64 .f32) (p : Fin 2000) (q : Fin 64) :
    (subf z (broadcastTo S2000x64 (shapeCast S2000x1
        (multiReduction .maximumf [1] S2000 z 0xFF800000#32 reduces_S2000x64_S2000 (.inl rfl) rfl)
        shapeCasts_S2000_S2000x1) broadcasts_S2000x1_S2000x64)) (ix2 p q)
      = shifted (fun q' => z (ix2 p q')) q := by
  show z (ix2 p q) - _ = _
  rw [colBroadcast_apply, laneMax_apply]
  rfl

/-! ### The body's payloads at an index -/

/-- The shifted logits the body computes, at (p, q): those of row p of the feature block. -/
theorem shiftedLogits_apply (P0 : Vec Ideal S2000x128 .f32) (P1 : Vec Ideal S128x256 .f32) (P2 : Vec Ideal S1x256 .f32)
    (P3 : Vec Ideal S256x256 .f32) (P4 : Vec Ideal S1x256 .f32) (P5 : Vec Ideal S256x64 .f32) (P6 : Vec Ideal S1x64 .f32) (p : Fin 2000) (q : Fin 64) :
    k0_pay2 P0 P1 P2 P3 P4 P5 P6 (ix2 p q)
      = shifted (logits (fun k => P0 (ix2 p k)) P1 (fun j => P2 (ix2 (0 : Fin 1) j)) P3 (fun j => P4 (ix2 (0 : Fin 1) j))
          P5 (fun j => P6 (ix2 (0 : Fin 1) j))) q := by
  unfold k0_pay2
  dsimp only
  refine (shift_apply _ p q).trans ?_
  refine congrArg (fun z => shifted z q) (funext fun q' => ?_)
  refine (layer3 _ _ _ p q').trans ?_
  unfold logits
  refine congrArg (fun v => affine v P5 (fun j => P6 (ix2 (0 : Fin 1) j)) q') (funext fun k2 => ?_)
  refine (relu_apply _ (ix2 p k2)).trans (congrArg relu ?_)
  refine (layer2 _ _ _ p k2).trans ?_
  refine congrArg (fun v => affine v P3 (fun j => P4 (ix2 (0 : Fin 1) j)) k2) (funext fun k1 => ?_)
  refine (relu_apply _ (ix2 p k1)).trans (congrArg relu ?_)
  refine (layer1 _ _ _ p k1).trans ?_
  refine congrArg (fun v => affine v P1 (fun j => P2 (ix2 (0 : Fin 1) j)) k1) (funext fun k0 => ?_)
  exact congrFun (shapeCast_self P0 _) (ix2 p k0)

/-- WHAT THE BODY STORES, at the block index (p, q): entry q of the row function of row p of the feature block. -/
theorem block_apply (P0 : Vec Ideal S2000x128 .f32) (P1 : Vec Ideal S128x256 .f32) (P2 : Vec Ideal S1x256 .f32)
    (P3 : Vec Ideal S256x256 .f32) (P4 : Vec Ideal S1x256 .f32) (P5 : Vec Ideal S256x64 .f32) (P6 : Vec Ideal S1x64 .f32) (p : Fin 2000) (q : Fin 64) :
    E7 P0 P1 P2 P3 P4 P5 P6 (ix2 p q)
      = rowOut (fun k => P0 (ix2 p k)) P1 (fun j => P2 (ix2 (0 : Fin 1) j)) P3 (fun j => P4 (ix2 (0 : Fin 1) j))
          P5 (fun j => P6 (ix2 (0 : Fin 1) j)) q := by
  have h0 : ix7_0 (ix2 p q) = ix2 p q :=
    funext fun c => Fin.ext (by match c with | ⟨0, _⟩ => rfl | ⟨1, _⟩ => rfl)
  have h1 : ix7_1 (ix2 p q) = ix1 p := funext fun c => Fin.ext (by match c with | ⟨0, _⟩ => rfl)
  show (k0_pay2 P0 P1 P2 P3 P4 P5 P6) (ix7_0 (ix2 p q))
      - Ideal.log ((multiReduction .add [1] S2000 (exp (k0_pay2 P0 P1 P2 P3 P4 P5 P6)) 0x00000000#32
          reduces_S2000x64_S2000 (.inl rfl) rfl) (ix7_1 (ix2 p q))) = _
  rw [h0, h1, laneSum_apply, shiftedLogits_apply]
  unfold rowOut logSoftmax
  refine congrArg (fun s => _ - Ideal.log s) (Finset.sum_congr rfl fun k _ => ?_)
  show Ideal.exp (k0_pay2 P0 P1 P2 P3 P4 P5 P6 (ix2 p k)) = _
  rw [shiftedLogits_apply]

/-- The same at any block index `y`, through its two coordinates. -/
theorem block_at (P0 : Vec Ideal S2000x128 .f32) (P1 : Vec Ideal S128x256 .f32) (P2 : Vec Ideal S1x256 .f32)
    (P3 : Vec Ideal S256x256 .f32) (P4 : Vec Ideal S1x256 .f32) (P5 : Vec Ideal S256x64 .f32) (P6 : Vec Ideal S1x64 .f32) (y : S2000x64.Idx) :
    E7 P0 P1 P2 P3 P4 P5 P6 y
      = rowOut (fun k => P0 (ix2 (⟨(y 0).val, idx2_lt0 y⟩ : Fin 2000) k)) P1 (fun j => P2 (ix2 (0 : Fin 1) j))
          P3 (fun j => P4 (ix2 (0 : Fin 1) j)) P5 (fun j => P6 (ix2 (0 : Fin 1) j)) (⟨(y 1).val, idx2_lt1 y⟩ : Fin 64) := by
  obtain ⟨p, q, rfl⟩ : ∃ (p : Fin 2000) (q : Fin 64), y = ix2 p q := ⟨y 0, y 1, eq_ix2 y⟩
  exact block_apply P0 P1 P2 P3 P4 P5 P6 p q

end Cert.KernelRows

end
-- ==== Proof.KernelArray.lean ====
/-
  From the blocks the grid points write back to the whole result array.

  The call runs over 25 grid points; point t stages rows 2000·t … 2000·t + 1999 of the propagated features
  (window 0), the three weights and the three bias rows whole (windows 1–6, the same block at every point), and
  writes back rows 2000·t … 2000·t + 1999 of the result (window 7). Since the body's block at (p, q) is the row
  function of row p of its feature block, point t writes exactly block t of `wholeArray` of the arrays as the
  call finds them; the 25 blocks tile the 50000 rows (row r lies in block r / 2000), so after the run the result
  array is `wholeArray` of those arrays. The bias rows are the rank-1 biases reshaped by the host before the call.
-/
import proofs.«119284_j13288628814644_1_alg».proof.Proof.KernelRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelArray

open Cert.KernelIdeal Cert.KernelIdeal.Gen Cert.KernelIdeal.Value Idealize.ShloMosaic.ValueIdx Cert.RowSpec

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the feature window and the result window are at block (t, 0) at point t,
    every other window at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input windows' blocks as parts of the arrays the call finds -/

/-- The feature block at point t is rows 2000·t … 2000·t + 1999 of the propagated features. -/
theorem featBlock_apply (c : Dev nD) (t : Fin cfg0.N) (x : S2000x128.Idx) (k : S50000x128.Idx)
    (hk0 : (k 0).val = 2000 * t.val + (x 0).val) (hk1 : (k 1).val = (x 1).val) :
    (iblk m c 0 t : Vec Ideal S2000x128 .f32) x = (V m c main_v62 : S50000x128.Idx → EReal) k := by
  obtain ⟨a00, a01, -⟩ := block_index t
  unfold iblk
  rw [View.read_apply]
  refine congrArg (V m c main_v62 : S50000x128.Idx → EReal) (funext fun a => Fin.ext ?_)
  match a with
  | ⟨0, _⟩ => show win0_0.index t 0 * 2000 + 1 * (x 0).val = (k 0).val; rw [a00, hk0]; omega
  | ⟨1, _⟩ => show win0_0.index t 1 * 128 + 1 * (x 1).val = (k 1).val; rw [a01, hk1]; omega

/-- The first weight is staged whole at every point. -/
theorem weight1_block (c : Dev nD) (t : Fin cfg0.N) :
    (iblk m c 1 t : Vec Ideal S128x256 .f32) = (V m c main_arg2 : S128x256.Idx → EReal) := by
  obtain ⟨-, -, a10, a11, a20, a21, a30, a31, a40, a41, a50, a51, a60, a61, -, -⟩ := block_index t
  funext x
  unfold iblk
  rw [View.read_apply]
  refine congrArg (V m c main_arg2 : S128x256.Idx → EReal) (funext fun a => Fin.ext ?_)
  match a with
  | ⟨0, _⟩ => show win0_1.index t 0 * 128 + 1 * (x 0).val = (x 0).val; rw [a10]; omega
  | ⟨1, _⟩ => show win0_1.index t 1 * 256 + 1 * (x 1).val = (x 1).val; rw [a11]; omega

/-- The first bias row is staged whole at every point. -/
theorem biasRow1_block (c : Dev nD) (t : Fin cfg0.N) :
    (iblk m c 2 t : Vec Ideal S1x256 .f32) = (V m c main_v63 : S1x256.Idx → EReal) := by
  obtain ⟨-, -, a10, a11, a20, a21, a30, a31, a40, a41, a50, a51, a60, a61, -, -⟩ := block_index t
  funext x
  unfold iblk
  rw [View.read_apply]
  refine congrArg (V m c main_v63 : S1x256.Idx → EReal) (funext fun a => Fin.ext ?_)
  match a with
  | ⟨0, _⟩ => show win0_2.index t 0 * 1 + 1 * (x 0).val = (x 0).val; rw [a20]; omega
  | ⟨1, _⟩ => show win0_2.index t 1 * 256 + 1 * (x 1).val = (x 1).val; rw [a21]; omega

/-- The second weight is staged whole at every point. -/
theorem weight2_block (c : Dev nD) (t : Fin cfg0.N) :
    (iblk m c 3 t : Vec Ideal S256x256 .f32) = (V m c main_arg4 : S256x256.Idx → EReal) := by
  obtain ⟨-, -, a10, a11, a20, a21, a30, a31, a40, a41, a50, a51, a60, a61, -, -⟩ := block_index t
  funext x
  unfold iblk
  rw [View.read_apply]
  refine congrArg (V m c main_arg4 : S256x256.Idx → EReal) (funext fun a => Fin.ext ?_)
  match a with
  | ⟨0, _⟩ => show win0_3.index t 0 * 256 + 1 * (x 0).val = (x 0).val; rw [a30]; omega
  | ⟨1, _⟩ => show win0_3.index t 1 * 256 + 1 * (x 1).val = (x 1).val; rw [a31]; omega

/-- The second bias row is staged whole at every point. -/
theorem biasRow2_block (c : Dev nD) (t : Fin cfg0.N) :
    (iblk m c 4 t : Vec Ideal S1x256 .f32) = (V m c main_v64 : S1x256.Idx → EReal) := by
  obtain ⟨-, -, a10, a11, a20, a21, a30, a31, a40, a41, a50, a51, a60, a61, -, -⟩ := block_index t
  funext x
  unfold iblk
  rw [View.read_apply]
  refine congrArg (V m c main_v64 : S1x256.Idx → EReal) (funext fun a => Fin.ext ?_)
  match a with
  | ⟨0, _⟩ => show win0_4.index t 0 * 1 + 1 * (x 0).val = (x 0).val; rw [a40]; omega
  | ⟨1, _⟩ => show win0_4.index t 1 * 256 + 1 * (x 1).val = (x 1).val; rw [a41]; omega

/-- The third weight is staged whole at every point. -/
theorem weight3_block (c : Dev nD) (t : Fin cfg0.N) :
    (iblk m c 5 t : Vec Ideal S256x64 .f32) = (V m c main_arg6 : S256x64.Idx → EReal) := by
  obtain ⟨-, -, a10, a11, a20, a21, a30, a31, a40, a41, a50, a51, a60, a61, -, -⟩ := block_index t
  funext x
  unfold iblk
  rw [View.read_apply]
  refine congrArg (V m c main_arg6 : S256x64.Idx → EReal) (funext fun a => Fin.ext ?_)
  match a with
  | ⟨0, _⟩ => show win0_5.index t 0 * 256 + 1 * (x 0).val = (x 0).val; rw [a50]; omega
  | ⟨1, _⟩ => show win0_5.index t 1 * 64 + 1 * (x 1).val = (x 1).val; rw [a51]; omega

/-- The third bias row is staged whole at every point. -/
theorem biasRow3_block (c : Dev nD) (t : Fin cfg0.N) :
    (iblk m c 6 t : Vec Ideal S1x64 .f32) = (V m c main_v65 : S1x64.Idx → EReal) := by
  obtain ⟨-, -, a10, a11, a20, a21, a30, a31, a40, a41, a50, a51, a60, a61, -, -⟩ := block_index t
  funext x
  unfold iblk
  rw [View.read_apply]
  refine congrArg (V m c main_v65 : S1x64.Idx → EReal) (funext fun a => Fin.ext ?_)
  match a with
  | ⟨0, _⟩ => show win0_6.index t 0 * 1 + 1 * (x 0).val = (x 0).val; rw [a60]; omega
  | ⟨1, _⟩ => show win0_6.index t 1 * 64 + 1 * (x 1).val = (x 1).val; rw [a61]; omega

/-! ## The bias rows are the biases -/

/-- The host reshapes the rank-1 bias to one row before the call: entry (0, j) of the row is entry j of the bias. -/
theorem biasRow1_apply (c : Dev nD) (j : Fin 256) :
    (V m c main_v63 : S1x256.Idx → EReal) (ix2 (0 : Fin 1) j) = (V m c main_arg3 : S256.Idx → EReal) (ix1 j) := by
  have e : (V m c main_v63 : S1x256.Idx → EReal)
      = shapeCast S1x256 (m ((c : Thread nD τ).loc main_arg3) : S256.Idx → EReal) shapeCasts_S256_S1x256 := by
    dsimp only [V, hostOps0]
    after_results_simp
    rfl
  rw [e, V_main_arg3]
  exact shapeCast_apply _ _ (ix2 (0 : Fin 1) j) (ix1 j) (by
    rw [Shape.rowMajor_val_one, Shape.rowMajor_val_two]; show j.val = 0 * 256 + j.val; omega)

/-- The host reshapes the rank-1 bias to one row before the call: entry (0, j) of the row is entry j of the bias. -/
theorem biasRow2_apply (c : Dev nD) (j : Fin 256) :
    (V m c main_v64 : S1x256.Idx → EReal) (ix2 (0 : Fin 1) j) = (V m c main_arg5 : S256.Idx → EReal) (ix1 j) := by
  have e : (V m c main_v64 : S1x256.Idx → EReal)
      = shapeCast S1x256 (m ((c : Thread nD τ).loc main_arg5) : S256.Idx → EReal) shapeCasts_S256_S1x256 := by
    dsimp only [V, hostOps0]
    after_results_simp
    rfl
  rw [e, V_main_arg5]
  exact shapeCast_apply _ _ (ix2 (0 : Fin 1) j) (ix1 j) (by
    rw [Shape.rowMajor_val_one, Shape.rowMajor_val_two]; show j.val = 0 * 256 + j.val; omega)

/-- The host reshapes the rank-1 bias to one row before the call: entry (0, j) of the row is entry j of the bias. -/
theorem biasRow3_apply (c : Dev nD) (j : Fin 64) :
    (V m c main_v65 : S1x64.Idx → EReal) (ix2 (0 : Fin 1) j) = (V m c main_arg7 : S64.Idx → EReal) (ix1 j) := by
  have e : (V m c main_v65 : S1x64.Idx → EReal)
      = shapeCast S1x64 (m ((c : Thread nD τ).loc main_arg7) : S64.Idx → EReal) shapeCasts_S64_S1x64 := by
    dsimp only [V, hostOps0]
    after_results_simp
    rfl
  rw [e, V_main_arg7]
  exact shapeCast_apply _ _ (ix2 (0 : Fin 1) j) (ix1 j) (by
    rw [Shape.rowMajor_val_one, Shape.rowMajor_val_two]; show j.val = 0 * 64 + j.val; omega)

/-! ## The result array -/

/-- What the result array ends at: the row function on every row of the propagated features as the call finds
    them, with the weights and biases as the call finds them. -/
abbrev result (c : Dev nD) : Buf (Elt Ideal) ((c : Thread nD τ).loc main_v66) :=
  wholeArray (V m c main_v62) (V m c main_arg2) (V m c main_arg3) (V m c main_arg4) (V m c main_arg5)
    (V m c main_arg6) (V m c main_arg7)

/-- WHAT POINT t WRITES BACK is block t of `result`. -/
theorem flushed_eq (c : Dev nD) (t : Fin cfg0.N) :
    (dats m 0 c).flushed 7 t = ((cfg0.win 7).blk t).view.read (Elt Ideal) (result m c) := by
  obtain ⟨-, -, -, -, -, -, -, -, -, -, -, -, -, -, a70, a71⟩ := block_index t
  rw [flushed7]
  funext y
  rw [View.read_apply]
  show out0_7 (iblk m c 0 t) (iblk m c 1 t) (iblk m c 2 t) (iblk m c 3 t) (iblk m c 4 t) (iblk m c 5 t) (iblk m c 6 t) y
      = result m c (((cfg0.win 7).blk t).view.emb y)
  unfold out0_7
  rw [canon7_eq]
  simp only [View.ld_unit_zero (S := S2000x128) hz, View.ld_unit_zero (S := S128x256) hz,
    View.ld_unit_zero (S := S1x256) hz, View.ld_unit_zero (S := S256x256) hz, View.ld_unit_zero (S := S256x64) hz,
    View.ld_unit_zero (S := S1x64) hz]
  refine (Cert.KernelRows.block_at _ _ _ _ _ _ _ y).trans ?_
  have hy0 : (y 0).val < 2000 := (y 0).isLt
  have hy1 : (y 1).val < 64 := (y 1).isLt
  have e0 : ((((cfg0.win 7).blk t).view.emb y) 0).val = 2000 * t.val + (y 0).val := by
    show win0_7.index t 0 * 2000 + 1 * (y 0).val = _; rw [a70]; omega
  have e1 : ((((cfg0.win 7).blk t).view.emb y) 1).val = (y 1).val := by
    show win0_7.index t 1 * 64 + 1 * (y 1).val = _; rw [a71]; omega
  show rowOut _ _ _ _ _ _ _ _ = rowOut _ _ _ _ _ _ _ _
  refine rowOut_congr (funext fun k => ?_) (weight1_block m c t) (funext fun j => ?_) (weight2_block m c t)
    (funext fun j => ?_) (weight3_block m c t) (funext fun j => ?_) (Fin.ext e1.symm)
  · exact featBlock_apply m c t _ _ e0 rfl
  · exact (congrFun (biasRow1_block m c t) _).trans (biasRow1_apply m c j)
  · exact (congrFun (biasRow2_block m c t) _).trans (biasRow2_apply m c j)
  · exact (congrFun (biasRow3_block m c t) _).trans (biasRow3_apply m c j)

/-- An index of the result array is in point t's block iff each coordinate is in the block's range on its axis. -/
theorem mem_blk (t : Fin cfg0.N) (i : S50000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v66).slice (win0_7.rect t)).set ↔ _
  rw [View.set_slice_whole, Rect.mem_set_unit]
  exact Iff.rfl

/-- Every row of the result lies in some point's block: row r in the block of point r / 2000. -/
theorem cover (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  obtain ⟨-, -, -, -, -, -, -, -, -, -, -, -, -, -, a70, a71⟩ := block_index t
  have ht : t.val = (i 0).val / 2000 := rfl
  refine ⟨t, flush0_7 t, ?_⟩
  rw [mem_blk]
  intro a
  match a with
  | ⟨0, _⟩ =>
    show win0_7.index t 0 * 2000 ≤ (i 0).val ∧ (i 0).val < win0_7.index t 0 * 2000 + 2000
    rw [a70, ht]; omega
  | ⟨1, _⟩ =>
    show win0_7.index t 1 * 64 ≤ (i 1).val ∧ (i 1).val < win0_7.index t 1 * 64 + 64
    rw [a71]; omega

/-- THE RESULT ARRAY after the run is `result`. -/
theorem final (c : Dev nD) : (dats m 0 c).arrAt 7 cfg0.N = result m c :=
  (dats m 0 c).arrAt_eq_of_cover 7 (result m c) (fun t _ => flushed_eq m c t) (cover)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v66) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelArray

end
-- ==== Proof.Features.lean ====
/-
  Both programs propagate the node features the same way before anything else.

  The kernel's program and the reference apply the same host operations to the node features and the edge list:
  halve the features, then five rounds of "gather the rows the edges point to, and add them up at the rows the
  edges start from", summing the six iterates, and divide by 6. Operation for operation the two printed programs
  agree, so the array the kernel's call finds in its first window is the reference's stage of the same name. The
  propagation itself is never opened: it is carried as one term on both sides.
-/
import proofs.«119284_j13288628814644_1_alg».proof.Proof.Gen.KernelIdeal.Frame
import proofs.«119284_j13288628814644_1_alg».proof.Proof.RefRead
import Idealize.ShloMosaic.Lib.StableHlo.Run

noncomputable section

open Idealize.ShloMosaic Idealize.ShloMosaic.TcCoe Idealize.SL.Sem Idealize.ShloMosaic.StableHlo

namespace Cert.Features

set_option maxRecDepth 65536 in
set_option maxHeartbeats 40000000 in
/-- The propagated features as the kernel's call finds them are the reference's propagated features of the same
    arguments. -/
theorem propagated_eq
    (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v62 : Cert.KernelIdeal.S50000x128.Idx → EReal)
      = Cert.ReferenceIdeal.Read.val_main_v62 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp
  rfl

end Cert.Features

end
-- ==== Proof.lean ====
/-
  The kernel and its reference compute the same array, as extended reals.

  Both programs first propagate the node features along the edges (the same host operations in both, carried
  here as one unopened term `y`), then send every row of `y` through three affine layers with the rectifier after
  the first two, and take the log-softmax of the 64 logits of each row. The reference does this on whole arrays;
  the kernel does it on 25 blocks of 2000 rows, with the matrix products taken in bf16 operands and an f32
  accumulator — which on extended reals are the exact sums — and writes each block back to its rows.
    * `RowSpec`      the function of one row, and `wholeArray`: that function on every row;
    * `RefRows`      the reference's result is `wholeArray` of `y` and the weights and biases;
    * `KernelRows`   the block the kernel's body stores is the row function on each row of its feature block;
    * `KernelArray`  the 25 blocks written back tile the result array, which ends at `wholeArray` likewise;
    * `Features`     the `y` the kernel's call finds is the reference's `y`.
  No algebraic law beyond reading each operation at an index is needed — the two sides are the same sums, maxima
  and differences in the same arrangement — so finiteness of the inputs is never used. The ideal pass rewrote
  nothing, so `preserves` has no conjunct.
-/
import proofs.«119284_j13288628814644_1_alg».proof.Defs
import proofs.«119284_j13288628814644_1_alg».proof.Proof.Gen.Kernel
import proofs.«119284_j13288628814644_1_alg».proof.Proof.Gen.Kernel.Skeleton
import proofs.«119284_j13288628814644_1_alg».proof.Proof.Gen.Kernel.Launch
import proofs.«119284_j13288628814644_1_alg».proof.Proof.Gen.Kernel.Points
import proofs.«119284_j13288628814644_1_alg».proof.Proof.Gen.Kernel.Frame
import proofs.«119284_j13288628814644_1_alg».proof.Proof.Gen.KernelIdeal
import proofs.«119284_j13288628814644_1_alg».proof.Proof.Gen.KernelIdeal.Skeleton
import proofs.«119284_j13288628814644_1_alg».proof.Proof.Gen.KernelIdeal.Launch
import proofs.«119284_j13288628814644_1_alg».proof.Proof.Gen.KernelIdeal.Points
import proofs.«119284_j13288628814644_1_alg».proof.Proof.Gen.KernelIdeal.Frame
import proofs.«119284_j13288628814644_1_alg».proof.Proof.Gen.KernelIdeal.Value
import proofs.«119284_j13288628814644_1_alg».proof.Proof.Gen.ReferenceIdeal
import proofs.«119284_j13288628814644_1_alg».proof.Proof.Gen.Pre_finite_inputs
import proofs.«119284_j13288628814644_1_alg».proof.Proof.RefRun
import proofs.«119284_j13288628814644_1_alg».proof.Proof.RefRead
import proofs.«119284_j13288628814644_1_alg».proof.Proof.RefRows
import proofs.«119284_j13288628814644_1_alg».proof.Proof.RefResult
import proofs.«119284_j13288628814644_1_alg».proof.Proof.KernelArray
import proofs.«119284_j13288628814644_1_alg».proof.Proof.Features
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.RefResult.run (F := Ideal) m ρ)

/-- The ideal pass rewrote no operation. -/
theorem preserves : Cert.preserves_Kernel_KernelIdeal := trivial

/-- From memories that agree on the arguments the kernel's result array and the reference's both end at the row
    function applied to every row of the propagated features. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.RefResult.run (F := Ideal) m' ρ')
  obtain ⟨h0, h1, h2, h3, h4, h5, h6, h7⟩ := hagree c
  rw [h0, h1, h2, h3, h4, h5, h6, h7, Cert.RefRows.result_eq]
  unfold Cert.KernelArray.result
  rw [Cert.Features.propagated_eq, Cert.KernelIdeal.Gen.V_main_arg2, Cert.KernelIdeal.Gen.V_main_arg3,
    Cert.KernelIdeal.Gen.V_main_arg4, Cert.KernelIdeal.Gen.V_main_arg5, Cert.KernelIdeal.Gen.V_main_arg6,
    Cert.KernelIdeal.Gen.V_main_arg7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
